-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048x32 : Shape := ⟨3, ![512, 2048, 32]⟩
abbrev S512x2048 : Shape := ⟨2, ![512, 2048]⟩
abbrev S32x32 : Shape := ⟨2, ![32, 32]⟩
abbrev S_ : Shape := ⟨0, ![]⟩

class Facts : Prop where
  bcast_S_S512x2048x32 : S_.BroadcastsInDim S512x2048x32 (![] : Fin 0 → Fin S512x2048x32.rank)
  reducesTo_S512x2048x32_S_d0_1_2 : S512x2048x32.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S512x2048x32 .f32) (main_arg1 : IVec S512x2048 32) (main_arg2 : FVec F S512x2048 .f32) (main_arg3 : FVec F S32x32 .f32) : IVec S_ 1 :=
  let main_v0 : FVec F S512x2048x32 .f32 := Host.absf main_arg0
  let main_cst : FVec F S_ .f32 := constant S_ .f32 0x7F800000#32
  let main_v1 : FVec F S512x2048x32 .f32 := broadcastInDim S512x2048x32 ![] bcast_S_S512x2048x32 main_cst
  let main_v2 : IVec S512x2048x32 1 := cmpf .olt main_v0 main_v1
  let main_c : IVec S_ 1 := constantI S_ 1 1#1
  let main_v3 : IVec S_ 1 := (fun x v => Host.reduce IntOp.andi x v reducesTo_S512x2048x32_S_d0_1_2 h_S_) main_v2 main_c
  let main_v4 : FVec F S512x2048 .f32 := Host.absf main_arg2
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S32x32 .f32 := Host.absf main_arg3
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  main_v13
-- ==== Kernel.lean ====
abbrev S512x2048x32 : Shape := ⟨3, ![512, 2048, 32]⟩
abbrev S512x2048 : Shape := ⟨2, ![512, 2048]⟩
abbrev S32x32 : Shape := ⟨2, ![32, 32]⟩
abbrev S512x1 : Shape := ⟨2, ![512, 1]⟩
abbrev S512 : Shape := ⟨1, ![512]⟩
abbrev S_ : Shape := ⟨0, ![]⟩
abbrev S512x32 : Shape := ⟨2, ![512, 32]⟩
abbrev S512x2047 : Shape := ⟨2, ![512, 2047]⟩
abbrev S512x2047x1 : Shape := ⟨3, ![512, 2047, 1]⟩
abbrev S512x2047x2 : Shape := ⟨3, ![512, 2047, 2]⟩
abbrev S1 : Shape := ⟨1, ![1]⟩
abbrev S1x1 : Shape := ⟨2, ![1, 1]⟩
abbrev S8x2048x32 : Shape := ⟨3, ![8, 2048, 32]⟩
abbrev S8x2048 : Shape := ⟨2, ![8, 2048]⟩
abbrev S8 : Shape := ⟨1, ![8]⟩
abbrev S8x1 : Shape := ⟨2, ![8, 1]⟩

abbrev nBuf : Space → Nat
  | .hbm => 52
  | .vmem => 5
  | .smem => 0
  | _ => 0

abbrev bufTy : (tb : Table) → Fin (tcTables nBuf tb) → BufTy
  | .hbm, ⟨0, _⟩ => ⟨S512x2048x32, .f32⟩
  | .hbm, ⟨1, _⟩ => ⟨S512x2048, .i32⟩
  | .hbm, ⟨2, _⟩ => ⟨S512x2048, .f32⟩
  | .hbm, ⟨3, _⟩ => ⟨S32x32, .f32⟩
  | .hbm, ⟨4, _⟩ => ⟨S512x1, .i32⟩
  | .hbm, ⟨5, _⟩ => ⟨S512, .i32⟩
  | .hbm, ⟨6, _⟩ => ⟨S_, .i32⟩
  | .hbm, ⟨7, _⟩ => ⟨S512, .i32⟩
  | .hbm, ⟨8, _⟩ => ⟨S512, .i1⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S512x1, .i32⟩
  | .hbm, ⟨14, _⟩ => ⟨S512x32, .f32⟩
  | .hbm, ⟨15, _⟩ => ⟨S_, .f32⟩
  | .hbm, ⟨16, _⟩ => ⟨S_, .f32⟩
  | .hbm, ⟨17, _⟩ => ⟨S512x2047, .i32⟩
  | .hbm, ⟨18, _⟩ => ⟨S512x2047, .i32⟩
  | .hbm, ⟨19, _⟩ => ⟨S_, .i32⟩
  | .hbm, ⟨20, _⟩ => ⟨S512x2047, .i32⟩
  | .hbm, ⟨21, _⟩ => ⟨S512x2047, .i1⟩
  | .hbm, ⟨22, _⟩ => ⟨S_, .i32⟩
  | .hbm, ⟨23, _⟩ => ⟨S512x2047, .i32⟩
  | .hbm, ⟨24, _⟩ => ⟨S512x2047, .i32⟩
  | .hbm, ⟨25, _⟩ => ⟨S512x2047, .i32⟩
  | .hbm, ⟨26, _⟩ => ⟨S_, .i32⟩
  | .hbm, ⟨27, _⟩ => ⟨S512x2047, .i32⟩
  | .hbm, ⟨28, _⟩ => ⟨S512x2047, .i1⟩
  | .hbm, ⟨29, _⟩ => ⟨S_, .i32⟩
  | .hbm, ⟨30, _⟩ => ⟨S512x2047, .i32⟩
  | .hbm, ⟨31, _⟩ => ⟨S512x2047, .i32⟩
  | .hbm, ⟨32, _⟩ => ⟨S512x2047, .i32⟩
  | .hbm, ⟨33, _⟩ => ⟨S512x2047x1, .i32⟩
  | .hbm, ⟨34, _⟩ => ⟨S512x2047x1, .i32⟩
  | .hbm, ⟨35, _⟩ => ⟨S512x2047x2, .i32⟩
  | .hbm, ⟨36, _⟩ => ⟨S512x2047, .f32⟩
  | .hbm, ⟨37, _⟩ => ⟨S512x2047, .f32⟩
  | .hbm, ⟨38, _⟩ => ⟨S512x2047, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .i32⟩
  | .hbm, ⟨44, _⟩ => ⟨S1, .i32⟩
  | .hbm, ⟨45, _⟩ => ⟨S_, .f32⟩
  | .hbm, ⟨46, _⟩ => ⟨S512, .f32⟩
  | .hbm, ⟨47, _⟩ => ⟨S512x2048, .f32⟩
  | .hbm, ⟨48, _⟩ => ⟨S1x1, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S8x2048x32, .f32⟩
  | .local _ .vmem, ⟨1, _⟩ => ⟨S8x2048x32, .f32⟩
  | .local _ .vmem, ⟨2, _⟩ => ⟨S8x2048, .f32⟩
  | .local _ .vmem, ⟨3, _⟩ => ⟨S8x2048, .f32⟩
  | .local _ .vmem, ⟨4, _⟩ => ⟨S1x1, .f32⟩
  | _, _ => ⟨S512x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S512x2048_S512x1_0_0 : S512x2048.Slices ![0, 0] S512x1
  shapeCasts_S512x1_S512 : S512x1.ShapeCasts S512
  bcast_S_S512 : S_.BroadcastsInDim S512 (![] : Fin 0 → Fin S512.rank)
  bcast_S512_S512x1_0 : S512.BroadcastsInDim S512x1 (![0] : Fin 1 → Fin S512x1.rank)
  reducesTo_S512x32_S_d0_1 : S512x32.ReducesTo [0, 1] S_
  h_S_ : 0 < S_.numel
  slices_S512x2048_S512x2047_0_0 : S512x2048.Slices ![0, 0] S512x2047
  slices_S512x2048_S512x2047_0_1 : S512x2048.Slices ![0, 1] S512x2047
  bcast_S_S512x2047 : S_.BroadcastsInDim S512x2047 (![] : Fin 0 → Fin S512x2047.rank)
  bcast_S512x2047_S512x2047x1_0_1 : S512x2047.BroadcastsInDim S512x2047x1 (![0, 1] : Fin 2 → Fin S512x2047x1.rank)
  concatenates_S512x2047x1_S512x2047x1_S512x2047x2_d2 : Shape.Concatenates [S512x2047x1, S512x2047x1] S512x2047x2 2
  reducesTo_S512x2047_S_d0_1 : S512x2047.ReducesTo [0, 1] S_
  bcast_S_S1 : S_.BroadcastsInDim S1 (![] : Fin 0 → Fin S1.rank)
  inb_S1x1_S1x1_0_0 : ∀ a, (![0, 0] : Fin 2 → Nat) a + S1x1.size a ≤ S1x1.size a
  h_S1x1 : 0 < S1x1.numel
  inb_S8x2048x32_S8x2048x32_0_0_0 : ∀ a, (![0, 0, 0] : Fin 3 → Nat) a + S8x2048x32.size a ≤ S8x2048x32.size a
  h_S8x2048x32 : 0 < S8x2048x32.numel
  reduces_S8x2048x32_S8x2048 : S8x2048x32.Reduces [2] S8x2048
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  reduces_S8x2048_S8 : S8x2048.Reduces [1] S8
  shapeCasts_S8_S8x1 : S8.ShapeCasts S8x1
  reduces_S8x1_S1 : S8x1.Reduces [0] S1
  shapeCasts_S1_S1x1 : S1.ShapeCasts S1x1
  shapeCasts_S1x1_S1x1 : S1x1.ShapeCasts S1x1
  shapeCasts_S1x1_S_ : S1x1.ShapeCasts S_
  gather_S32x32_S512x1_S512x32_1_0_n_n_0_1_132_wf : GatherDims.WF S32x32 S512x1 S512x32 [1] [0] [] [0] [] 1 ![1, 32]
  gather_S32x32_S512x2047x2_S512x2047_n_01_n_n_01_2_11_wf : GatherDims.WF S32x32 S512x2047x2 S512x2047 [] [0, 1] [] [0, 1] [] 2 ![1, 1]
  scatter_S512x2048_S1_S512_0_1_1_0_wf : ScatterDims.WF S512x2048 S1 S512 [0] [1] [1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x32.size a ≤ S512x2048x32.size a
  hwx0_0 : ∀ i : grid0.Coords, EltTy.bits .f32 = 32 ∨ (Rect.block (s := S512x2048x32) S8x2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S512x2048.size a
  hwx0_1 : ∀ i : grid0.Coords, EltTy.bits .f32 = 32 ∨ (Rect.block (s := S512x2048) S8x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S32x32_S512x1_S512x32_1_0_n_n_0_1_132 : GatherDims S32x32 S512x1 S512x32 where
  offsetDims := [1]
  collapsedSliceDims := [0]
  operandBatchingDims := []
  startIndicesBatchingDims := []
  startIndexMap := [0]
  indexVectorDim := 1
  sliceSizes := ![1, 32]
  wf := gather_S32x32_S512x1_S512x32_1_0_n_n_0_1_132_wf
def gather_S32x32_S512x2047x2_S512x2047_n_01_n_n_01_2_11 : GatherDims S32x32 S512x2047x2 S512x2047 where
  offsetDims := []
  collapsedSliceDims := [0, 1]
  operandBatchingDims := []
  startIndicesBatchingDims := []
  startIndexMap := [0, 1]
  indexVectorDim := 2
  sliceSizes := ![1, 1]
  wf := gather_S32x32_S512x2047x2_S512x2047_n_01_n_n_01_2_11_wf
def scatter_S512x2048_S1_S512_0_1_1_0 : ScatterDims S512x2048 S1 S512 where
  updateWindowDims := [0]
  insertedWindowDims := [1]
  scatterDimsToOperandDims := [1]
  indexVectorDim := 0
  wf := scatter_S512x2048_S1_S512_0_1_1_0_wf

abbrev win0_0 : Pipeline.Window sig grid0 :=
  Pipeline.Window.ofSpec (Memref.whole main_arg0) S8x2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x2048x32 : Shape := ⟨3, ![512, 2048, 32]⟩
abbrev S512x2048 : Shape := ⟨2, ![512, 2048]⟩
abbrev S32x32 : Shape := ⟨2, ![32, 32]⟩
abbrev S512x1 : Shape := ⟨2, ![512, 1]⟩
abbrev S512 : Shape := ⟨1, ![512]⟩
abbrev S_ : Shape := ⟨0, ![]⟩
abbrev S512x32 : Shape := ⟨2, ![512, 32]⟩
abbrev S512x1x32 : Shape := ⟨3, ![512, 1, 32]⟩
abbrev S512x2047 : Shape := ⟨2, ![512, 2047]⟩
abbrev S512x2047x1 : Shape := ⟨3, ![512, 2047, 1]⟩
abbrev S512x2047x2 : Shape := ⟨3, ![512, 2047, 2]⟩
abbrev S512x2047x32 : Shape := ⟨3, ![512, 2047, 32]⟩

abbrev nBuf : Space → Nat
  | .hbm => 55
  | .vmem => 0
  | .smem => 0
  | _ => 0

abbrev bufTy : (tb : Table) → Fin (tcTables nBuf tb) → BufTy
  | .hbm, ⟨0, _⟩ => ⟨S512x2048x32, .f32⟩
  | .hbm, ⟨1, _⟩ => ⟨S512x2048, .i32⟩
  | .hbm, ⟨2, _⟩ => ⟨S512x2048, .f32⟩
  | .hbm, ⟨3, _⟩ => ⟨S32x32, .f32⟩
  | .hbm, ⟨4, _⟩ => ⟨S512x1, .i32⟩
  | .hbm, ⟨5, _⟩ => ⟨S512, .i32⟩
  | .hbm, ⟨6, _⟩ => ⟨S_, .i32⟩
  | .hbm, ⟨7, _⟩ => ⟨S512, .i32⟩
  | .hbm, ⟨8, _⟩ => ⟨S512, .i1⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S512x1, .i32⟩
  | .hbm, ⟨14, _⟩ => ⟨S512x32, .f32⟩
  | .hbm, ⟨15, _⟩ => ⟨S512x1x32, .f32⟩
  | .hbm, ⟨16, _⟩ => ⟨S512x32, .f32⟩
  | .hbm, ⟨17, _⟩ => ⟨S512x32, .f32⟩
  | .hbm, ⟨18, _⟩ => ⟨S512x2047, .i32⟩
  | .hbm, ⟨19, _⟩ => ⟨S512x2047, .i32⟩
  | .hbm, ⟨20, _⟩ => ⟨S_, .i32⟩
  | .hbm, ⟨21, _⟩ => ⟨S512x2047, .i32⟩
  | .hbm, ⟨22, _⟩ => ⟨S512x2047, .i1⟩
  | .hbm, ⟨23, _⟩ => ⟨S_, .i32⟩
  | .hbm, ⟨24, _⟩ => ⟨S512x2047, .i32⟩
  | .hbm, ⟨25, _⟩ => ⟨S512x2047, .i32⟩
  | .hbm, ⟨26, _⟩ => ⟨S512x2047, .i32⟩
  | .hbm, ⟨27, _⟩ => ⟨S_, .i32⟩
  | .hbm, ⟨28, _⟩ => ⟨S512x2047, .i32⟩
  | .hbm, ⟨29, _⟩ => ⟨S512x2047, .i1⟩
  | .hbm, ⟨30, _⟩ => ⟨S_, .i32⟩
  | .hbm, ⟨31, _⟩ => ⟨S512x2047, .i32⟩
  | .hbm, ⟨32, _⟩ => ⟨S512x2047, .i32⟩
  | .hbm, ⟨33, _⟩ => ⟨S512x2047, .i32⟩
  | .hbm, ⟨34, _⟩ => ⟨S512x2047x1, .i32⟩
  | .hbm, ⟨35, _⟩ => ⟨S512x2047x1, .i32⟩
  | .hbm, ⟨36, _⟩ => ⟨S512x2047x2, .i32⟩
  | .hbm, ⟨37, _⟩ => ⟨S512x2047, .f32⟩
  | .hbm, ⟨38, _⟩ => ⟨S512x2047, .f32⟩
  | .hbm, ⟨39, _⟩ => ⟨S512x2047, .f32⟩
  | .hbm, ⟨40, _⟩ => ⟨S512x2047x32, .f32⟩
  | .hbm, ⟨41, _⟩ => ⟨S512x2047, .f32⟩
  | .hbm, ⟨42, _⟩ => ⟨S512x2047x1, .f32⟩
  | .hbm, ⟨43, _⟩ => ⟨S512x2047x32, .f32⟩
  | .hbm, ⟨44, _⟩ => ⟨S512x2047x32, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S512x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  slices_S512x2048_S512x1_0_0 : S512x2048.Slices ![0, 0] S512x1
  shapeCasts_S512x1_S512 : S512x1.ShapeCasts S512
  bcast_S_S512 : S_.BroadcastsInDim S512 (![] : Fin 0 → Fin S512.rank)
  bcast_S512_S512x1_0 : S512.BroadcastsInDim S512x1 (![0] : Fin 1 → Fin S512x1.rank)
  slices_S512x2048x32_S512x1x32_0_0_0 : S512x2048x32.Slices ![0, 0, 0] S512x1x32
  shapeCasts_S512x1x32_S512x32 : S512x1x32.ShapeCasts S512x32
  slices_S512x2048_S512x2047_0_0 : S512x2048.Slices ![0, 0] S512x2047
  slices_S512x2048_S512x2047_0_1 : S512x2048.Slices ![0, 1] S512x2047
  bcast_S_S512x2047 : S_.BroadcastsInDim S512x2047 (![] : Fin 0 → Fin S512x2047.rank)
  bcast_S512x2047_S512x2047x1_0_1 : S512x2047.BroadcastsInDim S512x2047x1 (![0, 1] : Fin 2 → Fin S512x2047x1.rank)
  concatenates_S512x2047x1_S512x2047x1_S512x2047x2_d2 : Shape.Concatenates [S512x2047x1, S512x2047x1] S512x2047x2 2
  slices_S512x2048x32_S512x2047x32_0_1_0 : S512x2048x32.Slices ![0, 1, 0] S512x2047x32
  bcast_S512x2047x1_S512x2047x32_0_1_2 : S512x2047x1.BroadcastsInDim S512x2047x32 (![0, 1, 2] : Fin 3 → Fin S512x2047x32.rank)
  reducesTo_S512x32_S_d0_1 : S512x32.ReducesTo [0, 1] S_
  h_S_ : 0 < S_.numel
  reducesTo_S512x2047_S_d0_1 : S512x2047.ReducesTo [0, 1] S_
  reducesTo_S512x2047x32_S_d0_1_2 : S512x2047x32.ReducesTo [0, 1, 2] S_
  gather_S32x32_S512x1_S512x32_1_0_n_n_0_1_132_wf : GatherDims.WF S32x32 S512x1 S512x32 [1] [0] [] [0] [] 1 ![1, 32]
  gather_S32x32_S512x2047x2_S512x2047_n_01_n_n_01_2_11_wf : GatherDims.WF S32x32 S512x2047x2 S512x2047 [] [0, 1] [] [0, 1] [] 2 ![1, 1]

variable [Facts₀]

def gather_S32x32_S512x1_S512x32_1_0_n_n_0_1_132 : GatherDims S32x32 S512x1 S512x32 where
  offsetDims := [1]
  collapsedSliceDims := [0]
  operandBatchingDims := []
  startIndicesBatchingDims := []
  startIndexMap := [0]
  indexVectorDim := 1
  sliceSizes := ![1, 32]
  wf := gather_S32x32_S512x1_S512x32_1_0_n_n_0_1_132_wf
def gather_S32x32_S512x2047x2_S512x2047_n_01_n_n_01_2_11 : GatherDims S32x32 S512x2047x2 S512x2047 where
  offsetDims := []
  collapsedSliceDims := [0, 1]
  operandBatchingDims := []
  startIndicesBatchingDims := []
  startIndexMap := [0, 1]
  indexVectorDim := 2
  sliceSizes := ![1, 1]
  wf := gather_S32x32_S512x2047x2_S512x2047_n_01_n_n_01_2_11_wf

class Facts : Prop extends Facts₀ where

variable [Facts]
-- ==== Proof.KernelPieces.lean ====
/-
  The two control cases of the kernel body, read as values. The body keeps one [1,1] running total in its
  output block. At the first grid point it stores a zero there, reads it back and stores
  zero + (the point's block total); at every later point it stores (what the block held) + (the point's
  block total). Both are the body's one pure term `k0_pay2` of the two input blocks and the running total.
-/
import proofs.«162659_j14379550507279_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later grid point (the reset branch not taken): the output block, holding `xo`, ends at the body's
    term of the input blocks and `xo`. -/
theorem out_B (c : Dev nD) (i : grid0.Coords) (a1 : Memref sig .tc .vmem S8x2048x32 .f32) (h1 : a1.IsWhole)
    (a2 : Memref sig .tc .vmem S8x2048 .f32) (h2 : a2.IsWhole) (a3 : Memref sig .tc .vmem S1x1 .f32) (h3 : a3.IsWhole)
    (hc : ¬cond0_0 i) (x0 : Vec F S8x2048x32 .f32) (x1 : Vec F S8x2048 .f32) (xo : Vec F S1x1 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  rw [View.canon_unit_zero hz2]
  simp only [View.readAt_eq_ld, h1.read_unread, h2.read_unread, h3.read_unread,
    View.ld_unit_zero (S := S8x2048x32) hz3, View.ld_unit_zero (S := S8x2048) hz2, View.ld_unit_zero (S := S1x1) hz2]

/-- The first grid point (the reset branch taken): the zero block is stored, read back, and the body's term of
    the input blocks and that zero block is stored over it. -/
theorem out_A (c : Dev nD) (i : grid0.Coords) (a1 : Memref sig .tc .vmem S8x2048x32 .f32) (h1 : a1.IsWhole)
    (a2 : Memref sig .tc .vmem S8x2048 .f32) (h2 : a2.IsWhole) (a3 : Memref sig .tc .vmem S1x1 .f32) (h3 : a3.IsWhole)
    (hc : cond0_0 i) (x0 : Vec F S8x2048x32 .f32) (x1 : Vec F S8x2048 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread,
    View.ld_unit_zero (S := S8x2048x32) hz3, View.ld_unit_zero (S := S8x2048) hz2]

end Cert.KernelIdeal.Pieces

end
-- ==== Proof.KernelBlock.lean ====
/-
  The body's arithmetic at the extended reals. With `x0` an [8,2048,32] block of emissions, `x1` the matching
  [8,2048] block of weights and `a` the running [1,1] total, the body's stored term is, at its one index,

      a + Σ_r Σ_s (Σ_t x0[r,s,t]) · x1[r,s]

  — three lane/sublane sums taken one axis at a time (each a plain finite sum at the extended reals, from a zero
  that is the sum's neutral element), a pointwise product, and reshapes that only rename indices.
-/
import proofs.«162659_j14379550507279_2_alg».proof.Proof.Gen.KernelIdeal.Skeleton
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.Block

open Cert.KernelIdeal Cert.KernelIdeal.Gen

/-- One block's weighted total: every row and position of the block, the position's emissions summed over the tags
    and multiplied by the position's weight. -/
def blockTotal (x0 : FVec Ideal S8x2048x32 .f32) (x1 : FVec Ideal S8x2048 .f32) : EReal :=
  ∑ r : Fin 8, ∑ s : Fin 2048, (∑ t : Fin 32, x0 (ix3 r s t)) * x1 (ix2 r s)

/-- The sum over the tag axis of an [8,2048,32] block at (r, s). -/
theorem sum_tags (x0 : FVec Ideal S8x2048x32 .f32) (hφ : FKind.Formats .f32)
    (hacc : (0x00000000#32 : BitVec 32) = FKind.add.neutral .f32 hφ) (r : Fin 8) (s : Fin 2048) :
    multiReduction .add [2] S8x2048 x0 0x00000000#32 reduces_S8x2048x32_S8x2048 hφ hacc (ix2 r s)
      = ∑ t : Fin 32, x0 (ix3 r s t) :=
  (Ideal.multiReduction_add_single x0 _ reduces_S8x2048x32_S8x2048 hφ hacc (ix2 r s)).trans
    (Finset.sum_congr rfl fun t _ => congrArg x0 (by funext c; apply Fin.ext; fin_cases c <;> rfl))

/-- The sum over the positions of an [8,2048] array at row r. -/
theorem sum_positions (v : FVec Ideal S8x2048 .f32) (hφ : FKind.Formats .f32)
    (hacc : (0x00000000#32 : BitVec 32) = FKind.add.neutral .f32 hφ) (r : Fin 8) :
    multiReduction .add [1] S8 v 0x00000000#32 reduces_S8x2048_S8 hφ hacc (ix1 r)
      = ∑ s : Fin 2048, v (ix2 r s) :=
  (Ideal.multiReduction_add_single v _ reduces_S8x2048_S8 hφ hacc (ix1 r)).trans
    (Finset.sum_congr rfl fun s _ => congrArg v (by funext c; apply Fin.ext; fin_cases c <;> rfl))

/-- The sum over the rows of an [8,1] column. -/
theorem sum_rows (v : FVec Ideal S8x1 .f32) (hφ : FKind.Formats .f32)
    (hacc : (0x00000000#32 : BitVec 32) = FKind.add.neutral .f32 hφ) (j : S1.Idx) :
    multiReduction .add [0] S1 v 0x00000000#32 reduces_S8x1_S1 hφ hacc j
      = ∑ r : Fin 8, v (ix2 r (0 : Fin 1)) :=
  (Ideal.multiReduction_add_single v _ reduces_S8x1_S1 hφ hacc j).trans
    (Finset.sum_congr rfl fun r _ => congrArg v (by
      funext c; apply Fin.ext
      have h0 : (j 0).val = 0 := by have h : (j 0).val < 1 := (j 0).isLt; omega
      fin_cases c
      · rfl
      · exact h0))

/-- An [8] vector written as an [8,1] column keeps its entries. -/
theorem column_apply (v : FVec Ideal S8 .f32) (r : Fin 8) :
    shapeCast S8x1 v shapeCasts_S8_S8x1 (ix2 r (0 : Fin 1)) = v (ix1 r) :=
  shapeCast_apply v shapeCasts_S8_S8x1 (ix2 r (0 : Fin 1)) (ix1 r)
    (by rewrite [Shape.rowMajor_val_one, Shape.rowMajor_val_two]; show r.val = r.val * 1 + 0; omega)

/-- A [1] vector written as a [1,1] block keeps its entry. -/
theorem unit_apply (v : FVec Ideal S1 .f32) (j : S1x1.Idx) :
    shapeCast S1x1 v shapeCasts_S1_S1x1 j = v (ix1 (0 : Fin 1)) :=
  shapeCast_apply v shapeCasts_S1_S1x1 j (ix1 (0 : Fin 1))
    (by
      rewrite [Shape.rowMajor_val_one, Shape.rowMajor_val_two]
      have h0 : (j 0).val = 0 := by have h : (j 0).val < 1 := (j 0).isLt; omega
      have h1 : (j 1).val = 0 := by have h : (j 1).val < 1 := (j 1).isLt; omega
      show 0 = (j 0).val * 1 + (j 1).val; omega)

/-- THE BODY'S TERM at the extended reals: the running total plus the block's weighted total. -/
theorem pay2_apply (x0 : FVec Ideal S8x2048x32 .f32) (x1 : FVec Ideal S8x2048 .f32) (a : FVec Ideal S1x1 .f32)
    (j : S1x1.Idx) : k0_pay2 (F := Ideal) x0 x1 a j = a j + blockTotal x0 x1 := by
  unfold k0_pay2 blockTotal
  refine congrArg₂ (· + ·) (congrFun (shapeCast_self a _) j) ?_
  refine (unit_apply _ j).trans ((sum_rows _ _ _ _).trans (Finset.sum_congr rfl fun r _ => ?_))
  refine (column_apply _ r).trans ((sum_positions _ _ _ r).trans (Finset.sum_congr rfl fun s _ => ?_))
  exact congrArg₂ (· * ·) (sum_tags x0 _ _ r s) (congrFun (shapeCast_self x1 _) (ix2 r s))

/-- The zero block the first grid point stores is the extended real 0. -/
theorem pay1_apply (j : S1x1.Idx) : k0_pay1 (F := Ideal) j = 0 := by
  unfold k0_pay1
  show Ideal.ofBits .f32 0x00000000#32 = 0
  exact Ideal.ofBits_zero_f32

end Cert.KernelIdeal.Block

end
-- ==== Proof.KernelRegion.lean ====
/-
  The kernel region's result. The grid has 64 points; point k stages rows 8k … 8k+7 of the emissions and of the
  weights, and the body adds that block's weighted total to the one-entry running total kept in the output block
  (reset to zero at point 0). So after point n the output block holds the sum of the block totals of points 0 … n,
  and the result array, written back once after the last point, holds the sum over all 64 blocks:

      Σ_k Σ_r Σ_s (Σ_t emissions[8k+r, s, t]) · weight[8k+r, s].
-/
import proofs.«162659_j14379550507279_2_alg».proof.Proof.KernelPieces
import proofs.«162659_j14379550507279_2_alg».proof.Proof.KernelBlock
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.KernelIdeal.Pieces Cert.KernelIdeal.Block

variable (m : (ℓ : Loc nD τ sig) → Buf (Elt Ideal) ℓ) (ρ : Dev nD → PrngReg)

/-- Grid point k's block total: the weighted total of the two blocks the point stages. -/
def pointTotal (c : Dev nD) (k : ℕ) (hk : k < cfg0.N) : EReal :=
  blockTotal (iblk m c 0 ⟨k, hk⟩) (iblk m c 1 ⟨k, hk⟩)

/-- The running total after point n: the block totals of points 0 … n. -/
def running (c : Dev nD) (n : ℕ) (h : n < cfg0.N) : EReal :=
  ∑ k : Fin (n + 1), pointTotal m c k.val (lt_of_le_of_lt (Nat.le_of_lt_succ k.isLt) h)

/-- What the output block holds after point n is the running total — by induction on the point. -/
theorem outsAt_eq (c : Dev nD) : ∀ (n : ℕ) (h : n < cfg0.N) (j : S1x1.Idx), outsAt0 m c n h j = running m c n h
  | 0, h, j => by
    have e := (outsAt0_A m c ⟨0, h⟩ rfl).trans
      (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        ((hcond0_0 ⟨0, h⟩).mpr rfl) (iblk m c 0 ⟨0, h⟩) (iblk m c 1 ⟨0, h⟩))
    refine (congrFun e j).trans ?_
    refine (pay2_apply (iblk m c 0 ⟨0, h⟩) (iblk m c 1 ⟨0, h⟩) (k0_pay1 (F := Ideal)) j).trans ?_
    rw [pay1_apply, zero_add]
    unfold running
    rw [Fin.sum_univ_one]
    rfl
  | n + 1, h, j => by
    have hN : cfg0.N = 64 := N_0
    have hB : ¬(⟨n + 1, h⟩ : Fin cfg0.N).val % 64 = 0 := by dsimp only; omega
    have e := (outsAt0_B m c ⟨n + 1, h⟩ hB).trans
      (out_B c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (fun hh => hB ((hcond0_0 ⟨n + 1, h⟩).mp hh))
        (iblk m c 0 ⟨n + 1, h⟩) (iblk m c 1 ⟨n + 1, h⟩) (outsAt0 m c n (Nat.lt_of_succ_lt h)))
    refine (congrFun e j).trans ?_
    refine (pay2_apply (iblk m c 0 ⟨n + 1, h⟩) (iblk m c 1 ⟨n + 1, h⟩) (outsAt0 m c n (Nat.lt_of_succ_lt h)) j).trans ?_
    rw [outsAt_eq c n (Nat.lt_of_succ_lt h) j]
    unfold running
    rw [Fin.sum_univ_castSucc (n := n + 1)]
    rfl

/-! ## The blocks, read at coordinates -/

/-- The emissions array and the weight array as the region finds them, as extended-real arrays. -/
def emis (c : Dev nD) : S512x2048x32.Idx → EReal := V m c main_arg0
def wts (c : Dev nD) : S512x2048.Idx → EReal := V m c main_v32

/-- Where the two input windows sit at point t: block row t, nothing else moves. -/
theorem idx_facts0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem idx_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Row r of block k is row 8k + r of the array. -/
def row (k : ℕ) (hk : k < cfg0.N) (r : Fin 8) : Fin 512 :=
  ⟨8 * k + r.val, by have hN : cfg0.N = 64 := N_0; have := r.isLt; omega⟩

/-- The emissions block at point k reads the emissions array at rows 8k + r. -/
theorem iblk0_apply (c : Dev nD) (k : ℕ) (hk : k < cfg0.N) (r : Fin 8) (s : Fin 2048) (t : Fin 32) :
    (iblk m c 0 ⟨k, hk⟩ : FVec Ideal S8x2048x32 .f32) (ix3 r s t) = emis m c (ix3 (row k hk r) s t) := by
  unfold iblk
  rw [View.read_apply]
  show V m c main_arg0 _ = V m c main_arg0 _
  refine congrArg (V m c main_arg0) (funext fun a => Fin.ext ?_)
  match a with
  | ⟨0, _⟩ => show win0_0.index ⟨k, hk⟩ 0 * 8 + 1 * r.val = 8 * k + r.val; rw [(idx_facts0 ⟨k, hk⟩).1]; show k * 8 + 1 * r.val = 8 * k + r.val; omega
  | ⟨1, _⟩ => show win0_0.index ⟨k, hk⟩ 1 * 2048 + 1 * s.val = s.val; rw [(idx_facts0 ⟨k, hk⟩).2.1]; omega
  | ⟨2, _⟩ => show win0_0.index ⟨k, hk⟩ 2 * 32 + 1 * t.val = t.val; rw [(idx_facts0 ⟨k, hk⟩).2.2]; omega

/-- The weights block at point k reads the weight array at rows 8k + r. -/
theorem iblk1_apply (c : Dev nD) (k : ℕ) (hk : k < cfg0.N) (r : Fin 8) (s : Fin 2048) :
    (iblk m c 1 ⟨k, hk⟩ : FVec Ideal S8x2048 .f32) (ix2 r s) = wts m c (ix2 (row k hk r) s) := by
  unfold iblk
  rw [View.read_apply]
  show V m c main_v32 _ = V m c main_v32 _
  refine congrArg (V m c main_v32) (funext fun a => Fin.ext ?_)
  match a with
  | ⟨0, _⟩ => show win0_1.index ⟨k, hk⟩ 0 * 8 + 1 * r.val = 8 * k + r.val; rw [(idx_facts1 ⟨k, hk⟩).1]; show k * 8 + 1 * r.val = 8 * k + r.val; omega
  | ⟨1, _⟩ => show win0_1.index ⟨k, hk⟩ 1 * 2048 + 1 * s.val = s.val; rw [(idx_facts1 ⟨k, hk⟩).2]; omega

/-- A point's block total over the arrays. -/
theorem pointTotal_eq (c : Dev nD) (k : ℕ) (hk : k < cfg0.N) :
    pointTotal m c k hk = ∑ r : Fin 8, ∑ s : Fin 2048,
      (∑ t : Fin 32, emis m c (ix3 (row k hk r) s t)) * wts m c (ix2 (row k hk r) s) := by
  unfold pointTotal blockTotal
  refine Finset.sum_congr rfl fun r _ => Finset.sum_congr rfl fun s _ => ?_
  exact congrArg₂ (· * ·) (Finset.sum_congr rfl fun t _ => iblk0_apply m c k hk r s t) (iblk1_apply m c k hk r s)

/-! ## The result array -/

/-- The grid has 64 points, so point 63 is its last. -/
theorem lastLt : 63 < cfg0.N := by rw [show cfg0.N = 64 from N_0]; decide

/-- The result: the running total after the last point, as the contents of the [1,1] result array. -/
abbrev result (c : Dev nD) : Buf (Elt Ideal) ((c : Thread nD τ).loc main_v33) := fun _ => running m c 63 lastLt

/-- The one write-back, after point 63, writes it: block (0, 0) of the [1,1] array is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 64 := N_0
  have h3 : t.val = 63 := by have := (flush0_2 t).mp hf; have := t.isLt; omega
  obtain rfl : t = ⟨63, lastLt⟩ := Fin.ext h3
  show (cfg0.win 2).cut (grid0.coords ⟨63, lastLt⟩) ((dats m 0 c).after 2 ⟨63, lastLt⟩) = _
  rw [after0_2]
  have e : outsAt0 m c 63 lastLt = result m c := funext fun j => outsAt_eq m c 63 lastLt j
  rw [show outsAt0 m c (⟨63, lastLt⟩ : Fin cfg0.N).val (⟨63, lastLt⟩ : Fin cfg0.N).isLt = result m c from e]
  have hz' : (fun a => win0_2.index ⟨63, lastLt⟩ a * main_v33.ty.shape.size a) = fun _ => 0 := funext fun a => by fin_cases a <;> decide
  exact (Memref.read_access_unit_zero (Elt Ideal) main_v33 hz' (fun a => by rw [congrFun hz' a]; simp) (result m c)).symm

/-- So the result array ends holding the running total after point 63 (that point's write-back covers it). -/
theorem final_o (c : Dev nD) : (dats m 0 c).arrAt 2 cfg0.N = result m c :=
  (dats m 0 c).arrAt_eq_of_cover 2 (result m c) (flushed_eq m c) fun i =>
    ⟨⟨63, lastLt⟩, (flush0_2 ⟨63, lastLt⟩).mpr rfl, by
      show i ∈ ((View.whole main_v33).slice (win0_2.rect ⟨63, lastLt⟩)).set
      rw [View.set_slice_whole, Rect.mem_set_unit]
      intro a
      have h0 : (i 0 : Nat) < 1 := (i 0).isLt
      have h1 : (i 1 : Nat) < 1 := (i 1).isLt
      match a with
      | ⟨0, _⟩ => show win0_2.index ⟨63, lastLt⟩ 0 * win0_2.size 0 ≤ (i 0 : Nat) ∧ (i 0 : Nat) < win0_2.index ⟨63, lastLt⟩ 0 * win0_2.size 0 + win0_2.xsize (grid0.coords ⟨63, lastLt⟩) 0
                  rw [show win0_2.index ⟨63, lastLt⟩ 0 * win0_2.size 0 = 0 from by decide +kernel, show win0_2.xsize (grid0.coords ⟨63, lastLt⟩) 0 = 1 from by decide +kernel]; omega
      | ⟨1, _⟩ => show win0_2.index ⟨63, lastLt⟩ 1 * win0_2.size 1 ≤ (i 1 : Nat) ∧ (i 1 : Nat) < win0_2.index ⟨63, lastLt⟩ 1 * win0_2.size 1 + win0_2.xsize (grid0.coords ⟨63, lastLt⟩) 1
                  rw [show win0_2.index ⟨63, lastLt⟩ 1 * win0_2.size 1 = 0 from by decide +kernel, show win0_2.xsize (grid0.coords ⟨63, lastLt⟩) 1 = 1 from by decide +kernel]; omega⟩

end Cert.KernelIdeal.Region

end
-- ==== Proof.KernelValue.lean ====
/-
  The kernel's whole program, read. Before the region the host code computes the two transition terms (gathers of
  the transition table, shared word for word with the reference) and the weight array (the mask with column 0 set to
  one); the region accumulates the weighted emission total; after it the host code adds the three scalars.
-/
import proofs.«162659_j14379550507279_2_alg».proof.Proof.KernelRegion
import proofs.«162659_j14379550507279_2_alg».proof.Proof.Gen.ReferenceIdeal.Read
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.HostValue

open Cert.KernelIdeal Cert.KernelIdeal.Gen Cert.KernelIdeal.Region

variable (m : (ℓ : Loc nD τ sig) → Buf (Elt Ideal) ℓ) (ρ : Dev nD → PrngReg)

/-- The first transition term: the total of the transition rows of every sequence's first tag. The gathered rows are
    the reference's own stage of the same name, applied to this program's arguments. -/
theorem V0_v9 (c : Dev nD) : (V0 m c (Proc.devRef .tc main_v9) : S_.Idx → Ideal .f32)
    = Host.reduceAdd (Cert.ReferenceIdeal.Read.val_main_v8 (F := Ideal) (m ((c : Thread nD τ).loc main_arg1)) (m ((c : Thread nD τ).loc main_arg3)))
        (constant (F := Ideal) S_ .f32 0x00000000#32) Cert.ReferenceIdeal.Gen.reducesTo_S512x32_S_d0_1 Cert.ReferenceIdeal.Gen.h_S_ := by
  show StableHlo.after hostOps0 (fun b => m (c, b)) (Proc.devRef .tc main_v9) = _
  after_results
  rfl

/-- The second transition term: the masked step transitions' total, times the number of tags. The masked step
    transitions are the reference's own stage, applied to this program's arguments. -/
theorem V0_v29 (c : Dev nD) : (V0 m c (Proc.devRef .tc main_v29) : S_.Idx → Ideal .f32)
    = mulf (Host.reduceAdd (Cert.ReferenceIdeal.Read.val_main_v29 (F := Ideal) (m ((c : Thread nD τ).loc main_arg1)) (m ((c : Thread nD τ).loc main_arg2)) (m ((c : Thread nD τ).loc main_arg3)))
        (constant (F := Ideal) S_ .f32 0x00000000#32) Cert.ReferenceIdeal.Gen.reducesTo_S512x2047_S_d0_1 Cert.ReferenceIdeal.Gen.h_S_) (constant (F := Ideal) S_ .f32 0x42000000#32) := by
  show StableHlo.after hostOps0 (fun b => m (c, b)) (Proc.devRef .tc main_v29) = _
  after_results_simp
  rfl

/-- The weight array: the mask with a column of ones scattered into column 0. -/
theorem V_v32 (c : Dev nD) : (V m c main_v32 : S512x2048.Idx → Ideal .f32)
    = Host.scatter scatter_S512x2048_S1_S512_0_1_1_0 (fun _ b => b) (m ((c : Thread nD τ).loc main_arg2))
        (broadcastInDim S1 ![] bcast_S_S1 (constantI S_ 32 0#32))
        (broadcastInDim S512 ![] bcast_S_S512 (constant (F := Ideal) S_ .f32 0x3F800000#32)) := by
  show StableHlo.after hostOps0 (fun b => m (c, b)) (Proc.devRef .tc main_v32) = _
  after_results
  rfl

/-- The kernel program's result: the two transition terms and the region's total, added in the program's order. -/
def kres (c : Dev nD) : Buf (Elt Ideal) ((c : Thread nD τ).loc main_v36) :=
  addf (F := Ideal) (s := S_) (φ := .f32)
    (addf (F := Ideal) (s := S_) (φ := .f32) (V0 m c (Proc.devRef .tc main_v9)) (V0 m c (Proc.devRef .tc main_v29)))
    (shapeCast S_ (result m c) shapeCasts_S1x1_S_)

/-- The three host operations after the region compute it from the region's result array and the two earlier scalars. -/
theorem tail_v36 (c : Dev nD) : Pipeline.afterTail₀ cfgs (dats m) 0 (V0 m) [hostOps1] c main_v36 = kres m c := by
  unfold Pipeline.afterTail₀ kres
  show StableHlo.after hostOps1 _ (Proc.devRef .tc main_v36) = _
  after_results
  rw [Pipeline.withArrays_of_ne _ c (V0 m c) _ main_v9 (by exact (by decide : ∀ w, Pipeline.arrRef spec0 w ≠ main_v9)),
      Pipeline.withArrays_of_ne _ c (V0 m c) _ main_v29 (by exact (by decide : ∀ w, Pipeline.arrRef spec0 w ≠ main_v29)),
      (Pipeline.withArrays_arr spec0 launch0.win.arr_inj c _ _ 2).trans (final_o m c)]
  rfl

/-- THE KERNEL PROGRAM'S RUN, read: every weakly fair execution terminates with the result at `kres` and the four
    arguments unchanged. -/
theorem run : θ_run defs (onTc (τ := τ) (main (F := Ideal))) ⟨m, fun _ => 0, ρ⟩ (fun r => ∀ c : Dev nD,
      r.2.mem ((c.tc : Thread nD τ).loc main_v36) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v36 (Pipeline.mem_restRefs_of main_v36 (by decide) (by decide))).trans (tail_v36 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.HostValue

end
-- ==== Proof.FiniteInputs.lean ====
/-
  The finiteness precondition, read back: when the printed predicate
  `all(|a0| < +inf) & all(|a2| < +inf) & all(|a3| < +inf)` is all ones over the extended reals,
  every entry of the first and of the third argument is a real number.
-/
import proofs.«162659_j14379550507279_2_alg».proof.Pre_finite_inputs
import proofs.«162659_j14379550507279_2_alg».proof.Proof.Gen.Pre_finite_inputs
import Idealize.ShloMosaic.PureOps.Ideal
import Idealize.ShloMosaic.Lib.ReduceAll
import Idealize.ShloMosaic.Lib.ValueIdx

namespace Cert.Crf
open Idealize.ShloMosaic

/-- The f32 word `0x7F800000` (exponent all ones, significand zero, sign clear) denotes `+∞`. -/
theorem ofBits_pos_inf : Ideal.ofBits .f32 0x7F800000#32 = (⊤ : EReal) := by
  simp [Ideal.ofBits, Ideal.ieee]

/-- An extended real whose absolute value `max x (-x)` is below `+∞` is a real number:
    `⊥` has absolute value `⊤`, and so has `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a Boolean is one only when the Boolean is true. -/
theorem eq_true_of_ofBool_eq_one {b : Bool} (h : BitVec.ofBool b = 1#1) : b = true := by
  cases b
  · exact absurd h (by decide)
  · rfl

/-- The comparison word `|x| < +∞` being one says `x` is real. -/
theorem real_of_cmp (x : Ideal .f32)
    (h : FloatOps.cmpf (F := Ideal) .olt (FloatOps.hostAbsf x) (FloatOps.ofBits .f32 0x7F800000#32) = 1#1) :
    ∃ r : ℝ, x = (r : EReal) := by
  apply real_of_abs_lt_top
  have h' : Ideal.cmp .olt (max x (-x)) (Ideal.ofBits .f32 0x7F800000#32) = 1#1 := h
  rw [ofBits_pos_inf] at h'
  simp only [Ideal.cmp] at h'
  exact of_decide_eq_true (eq_true_of_ofBool_eq_one h')

/-- The rank-0 shape has one index. -/
instance : Subsingleton Cert.Pre_finite_inputs.S_.Idx := ⟨fun a b => funext fun d => d.elim0⟩

theorem finite_of_pre [Cert.Pre_finite_inputs.Facts]
    (a0 : FVec Ideal Cert.Pre_finite_inputs.S512x2048x32 .f32) (a1 : IVec Cert.Pre_finite_inputs.S512x2048 32)
    (a2 : FVec Ideal Cert.Pre_finite_inputs.S512x2048 .f32) (a3 : FVec Ideal Cert.Pre_finite_inputs.S32x32 .f32)
    (h : Cert.Pre_finite_inputs.fn (F := Ideal) a0 a1 a2 a3 = fun _ => 1#1) :
    (∀ i, ∃ r : ℝ, a0 i = (r : EReal)) ∧ (∀ i, ∃ r : ℝ, a2 i = (r : EReal)) := by
  have h0 := congrFun h ValueIdx.ix0
  dsimp only [Cert.Pre_finite_inputs.fn] at h0
  obtain ⟨h01, -⟩ := IntOp.andi_eq_one.1 h0
  obtain ⟨hA, hB⟩ := IntOp.andi_eq_one.1 h01
  refine ⟨fun i => ?_, fun i => ?_⟩
  · exact real_of_cmp (a0 i) (Host.reduce_andi_all _ _ _ _ _ hA i)
  · exact real_of_cmp (a2 i) (Host.reduce_andi_all _ _ _ _ _ hB i)

end Cert.Crf
-- ==== Proof.SumAlgebra.lean ====
/-
  Finite-sum algebra over the extended reals: a sum over a rank-3 index set as a triple sum over its
  coordinates, 512 rows as 64 blocks of 8, a real weight distributed over a finite sum of reals, and
  the split of a weighted total into its first position and its later positions.
-/
import Mathlib
import Idealize.ShloMosaic.Lib.ValueIdx

open scoped BigOperators

namespace Cert.Crf
open Idealize.ShloMosaic

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ValueIdx.ix3 p.1 p.2.1 p.2.2
  left_inv i := (ValueIdx.eq_ix3 i).symm
  right_inv _ := rfl

/-- a sum over a rank-3 index type is the triple sum over its coordinates -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ValueIdx.ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- 64 consecutive blocks of 8 rows make up the 512 rows: the pair (n, r) is sent to r + 8 * n, a
    bijection of Fin 64 × Fin 8 with Fin (64 * 8). -/
theorem sum_blocks (f : Fin 512 → EReal) :
    ∑ n : Fin 64, ∑ r : Fin 8, f ⟨8 * n.val + r.val, by have := n.isLt; have := r.isLt; omega⟩ = ∑ b : Fin 512, f b := by
  have key := Equiv.sum_comp (finProdFinEquiv (m := 64) (n := 8)) (fun b : Fin (64 * 8) => f b)
  rw [Fintype.sum_prod_type] at key
  refine Eq.trans ?_ key
  refine Finset.sum_congr rfl fun n _ => Finset.sum_congr rfl fun r _ => ?_
  congr 1
  apply Fin.ext
  simp only [finProdFinEquiv, Equiv.coe_fn_mk]
  omega

/-- the coercion of the reals into the extended reals commutes with finite sums -/
theorem coe_finset_sum {ι : Type*} (s : Finset ι) (a : ι → ℝ) :
    ((∑ t ∈ s, a t : ℝ) : EReal) = ∑ t ∈ s, (a t : EReal) := by
  classical
  induction s using Finset.induction_on with
  | empty => simp
  | insert x s hx ih => rw [Finset.sum_insert hx, Finset.sum_insert hx, EReal.coe_add, ih]

/-- a real weight distributes over a finite sum of reals inside the extended reals -/
theorem sum_mul_coe {ι : Type*} (s : Finset ι) (a : ι → ℝ) (w : ℝ) :
    (∑ t ∈ s, (a t : EReal)) * (w : EReal) = ∑ t ∈ s, (a t : EReal) * (w : EReal) := by
  rw [← coe_finset_sum, ← EReal.coe_mul, Finset.sum_mul, coe_finset_sum]
  simp only [EReal.coe_mul]

/-- a sum over 2048 positions is its first term plus the sum over the 2047 later positions -/
theorem sum_head_tail (g : Fin 2048 → EReal) :
    ∑ s : Fin 2048, g s
      = g ⟨0, by decide⟩ + ∑ k : Fin 2047, g ⟨1 + k.val, by have := k.isLt; omega⟩ := by
  rw [Fin.sum_univ_succ (n := 2047)]
  refine congrArg (g 0 + ·) (Finset.sum_congr rfl fun k _ => congrArg g (Fin.ext ?_))
  simp only [Fin.val_succ]
  omega

/-- the weighted emission total splits into the unweighted first position and the masked later positions -/
theorem emit_split (e : Fin 512 → Fin 2048 → Fin 32 → ℝ) (μ : Fin 512 → Fin 2048 → ℝ) :
    (∑ b : Fin 512, ∑ s : Fin 2048, (∑ t : Fin 32, (e b s t : EReal)) * (if s.val = 0 then (1 : EReal) else (μ b s : EReal)))
      = (∑ b : Fin 512, ∑ t : Fin 32, (e b ⟨0, by decide⟩ t : EReal))
        + ∑ b : Fin 512, ∑ s : Fin 2047, ∑ t : Fin 32, (e b ⟨1 + s.val, by have := s.isLt; omega⟩ t : EReal) * (μ b ⟨1 + s.val, by have := s.isLt; omega⟩ : EReal) := by
  rw [← Finset.sum_add_distrib]
  refine Finset.sum_congr rfl fun b _ => ?_
  rw [sum_head_tail]
  refine congrArg₂ (· + ·) ?_ (Finset.sum_congr rfl fun k _ => ?_)
  · rw [if_pos rfl, mul_one]
  · have hne : ¬ (1 + k.val = 0) := by omega
    rw [if_neg hne, sum_mul_coe]

/-- four extended reals regrouped, with the zeros a sum starts from dropped: only associativity and
    commutativity of addition, so it holds for infinite entries too -/
theorem add_regroup (a y c d : EReal) : ((0 + a) + y) + (c + d) = ((0 + (a + c)) + y) + (0 + d) := by
  rw [zero_add, zero_add, zero_add]
  ac_rfl

/-- the two programs' totals agree: the kernel adds the weighted emission total, block by block, to the two
    transition terms; the reference adds the first position's emissions inside the first term and the masked later
    positions as a third -/
theorem total_eq (A : Fin 512 → Fin 32 → EReal) (Y : EReal) (e : Fin 512 → Fin 2048 → Fin 32 → ℝ) (μ : Fin 512 → Fin 2048 → ℝ) :
    ((0 + ∑ b : Fin 512, ∑ t : Fin 32, A b t) + Y)
        + ∑ n : Fin 64, ∑ r : Fin 8, ∑ s : Fin 2048,
            (∑ t : Fin 32, (e ⟨8 * n.val + r.val, by have := n.isLt; have := r.isLt; omega⟩ s t : EReal))
              * (if s.val = 0 then (1 : EReal) else (μ ⟨8 * n.val + r.val, by have := n.isLt; have := r.isLt; omega⟩ s : EReal))
      = ((0 + ∑ b : Fin 512, ∑ t : Fin 32, (A b t + (e b ⟨0, by decide⟩ t : EReal))) + Y)
        + (0 + ∑ b : Fin 512, ∑ s : Fin 2047, ∑ t : Fin 32,
            (e b ⟨1 + s.val, by have := s.isLt; omega⟩ t : EReal) * (μ b ⟨1 + s.val, by have := s.isLt; omega⟩ : EReal)) := by
  have hsplit : ∑ b : Fin 512, ∑ t : Fin 32, (A b t + (e b ⟨0, by decide⟩ t : EReal))
      = (∑ b : Fin 512, ∑ t : Fin 32, A b t) + ∑ b : Fin 512, ∑ t : Fin 32, (e b ⟨0, by decide⟩ t : EReal) :=
    (Finset.sum_congr rfl fun b _ => Finset.sum_add_distrib).trans Finset.sum_add_distrib
  rw [sum_blocks (fun b => ∑ s : Fin 2048, (∑ t : Fin 32, (e b s t : EReal))
        * (if s.val = 0 then (1 : EReal) else (μ b s : EReal))),
    emit_split, hsplit]
  exact add_regroup _ _ _ _

end Cert.Crf
-- ==== Proof.WeightColumn.lean ====
import proofs.«162659_j14379550507279_2_alg».proof.KernelIdeal
import Idealize.ShloMosaic.PureOps.Ideal
import Idealize.ShloMosaic.PureOps.Ideal.Laws
import Idealize.ShloMosaic.Lib.ValueIdx
import Mathlib

/-!
The weight array of the host code: a scatter of a column of ones into column 0 of a
[512, 2048] array. The theorem weight_apply reads it at an index (b, s): one where s = 0,
the operand elsewhere.
-/

namespace Cert.Crf
open Idealize.ShloMosaic Cert.KernelIdeal

/-- A scatter whose body returns the update and whose updates all carry the same value v:
    the result at i' is v when some update lands on i', and the operand's element otherwise
    (the order of the updates does not matter, since they all write v). -/
theorem scatter_const_apply {s si u : Shape} {w : Nat} {α : Type} (d : ScatterDims s si u)
    (x : s.Idx → α) (idx : IVec si w) (upd : u.Idx → α) (v : α) (hv : ∀ j, upd j = v) (i' : s.Idx) :
    Host.scatter d (fun _ b => b) x idx upd i'
      = if ∃ n ∈ List.finRange u.numel, d.resultIdx? (u.rowMajor.symm n) idx = some i'
          then v else x i' := by
  unfold Host.scatter
  generalize List.finRange u.numel = L
  induction L generalizing x with
  | nil => simp
  | cons a L ih =>
    rw [List.foldl_cons, ih]
    by_cases hL : ∃ n ∈ L, d.resultIdx? (u.rowMajor.symm n) idx = some i'
    · have : ∃ n ∈ a :: L, d.resultIdx? (u.rowMajor.symm n) idx = some i' := by
        obtain ⟨n, hn, h⟩ := hL
        exact ⟨n, List.mem_cons_of_mem _ hn, h⟩
      rw [if_pos hL, if_pos this]
    · rw [if_neg hL]
      cases hg : d.resultIdx? (u.rowMajor.symm a) idx with
      | none =>
        have : ¬ ∃ n ∈ a :: L, d.resultIdx? (u.rowMajor.symm n) idx = some i' := by
          rintro ⟨n, hn, h⟩
          rcases List.mem_cons.1 hn with rfl | hn
          · rw [hg] at h; cases h
          · exact hL ⟨n, hn, h⟩
        rw [if_neg this]
      | some i =>
        by_cases hi : i' = i
        · have : ∃ n ∈ a :: L, d.resultIdx? (u.rowMajor.symm n) idx = some i' :=
            ⟨a, List.mem_cons_self .., by rw [hg, hi]⟩
          rw [if_pos this]
          show (if i' = i then upd (u.rowMajor.symm a) else x i') = v
          rw [if_pos hi, hv]
        · have : ¬ ∃ n ∈ a :: L, d.resultIdx? (u.rowMajor.symm n) idx = some i' := by
            rintro ⟨n, hn, h⟩
            rcases List.mem_cons.1 hn with rfl | hn
            · rw [hg] at h; exact hi (Option.some.inj h).symm
            · exact hL ⟨n, hn, h⟩
          rw [if_neg this]
          show (if i' = i then upd (u.rowMajor.symm a) else x i') = x i'
          rw [if_neg hi]

section
variable [Cert.KernelIdeal.Facts₀]

/-- The scatter's one index: the word 0. -/
private abbrev weightIdx0 : IVec S1 32 := broadcastInDim S1 ![] Facts₀.bcast_S_S1 (constantI S_ 32 0#32)

/-- Update b lands at row b of column 0: the start is the index word 0 on the column axis and
    0 on the row axis, the window coordinate is b on the row axis and 0 on the column axis. -/
theorem weight_landing (b : Fin 512) :
    scatter_S512x2048_S1_S512_0_1_1_0.resultIdx? (ValueIdx.ix1 b) weightIdx0
      = some (ValueIdx.ix2 b (0 : Fin 2048)) := by
  have hs : ∀ a, scatter_S512x2048_S1_S512_0_1_1_0.start (ValueIdx.ix1 b) weightIdx0 a = 0 := by
    intro a
    match a with
    | ⟨0, _⟩ => rfl
    | ⟨1, _⟩ => rfl
  have hw0 : scatter_S512x2048_S1_S512_0_1_1_0.window (ValueIdx.ix1 b) ⟨0, by decide⟩ = b.val := rfl
  have hw1 : scatter_S512x2048_S1_S512_0_1_1_0.window (ValueIdx.ix1 b) ⟨1, by decide⟩ = 0 := rfl
  have H : ∀ a, 0 ≤ scatter_S512x2048_S1_S512_0_1_1_0.start (ValueIdx.ix1 b) weightIdx0 a
        + scatter_S512x2048_S1_S512_0_1_1_0.window (ValueIdx.ix1 b) a
      ∧ scatter_S512x2048_S1_S512_0_1_1_0.start (ValueIdx.ix1 b) weightIdx0 a
        + scatter_S512x2048_S1_S512_0_1_1_0.window (ValueIdx.ix1 b) a < S512x2048.size a := by
    intro a
    rw [hs a]
    match a with
    | ⟨0, _⟩ =>
      rw [hw0]
      have : b.val < 512 := b.isLt
      show (0 : Int) ≤ 0 + (b.val : Int) ∧ (0 : Int) + (b.val : Int) < ((512 : Nat) : Int)
      omega
    | ⟨1, _⟩ =>
      rw [hw1]
      show (0 : Int) ≤ 0 + ((0 : Nat) : Int) ∧ (0 : Int) + ((0 : Nat) : Int) < ((2048 : Nat) : Int)
      omega
  unfold ScatterDims.resultIdx?
  rw [dif_pos H]
  congr 1
  funext a
  refine Fin.ext ?_
  match a with
  | ⟨0, h⟩ =>
    show (scatter_S512x2048_S1_S512_0_1_1_0.start (ValueIdx.ix1 b) weightIdx0 ⟨0, h⟩
        + scatter_S512x2048_S1_S512_0_1_1_0.window (ValueIdx.ix1 b) ⟨0, h⟩).toNat = b.val
    rw [hs, hw0]; omega
  | ⟨1, h⟩ =>
    show (scatter_S512x2048_S1_S512_0_1_1_0.start (ValueIdx.ix1 b) weightIdx0 ⟨1, h⟩
        + scatter_S512x2048_S1_S512_0_1_1_0.window (ValueIdx.ix1 b) ⟨1, h⟩).toNat = 0
    rw [hs, hw1]; omega

end

/-- the weight array: ones in column 0, the mask elsewhere -/
theorem weight_apply [Cert.KernelIdeal.Facts₀] (x : FVec Ideal S512x2048 .f32) (b : Fin 512) (s : Fin 2048) :
    Host.scatter scatter_S512x2048_S1_S512_0_1_1_0 (fun _ b => b) x
        (broadcastInDim S1 ![] Facts₀.bcast_S_S1 (constantI S_ 32 0#32))
        (broadcastInDim S512 ![] Facts₀.bcast_S_S512 (constant (F := Ideal) S_ .f32 0x3F800000#32))
        (ValueIdx.ix2 b s)
      = if s.val = 0 then (1 : EReal) else x (ValueIdx.ix2 b s) := by
  -- every update carries the word of 1.0
  have hone : ∀ j : S512.Idx,
      (broadcastInDim S512 ![] Facts₀.bcast_S_S512 (constant (F := Ideal) S_ .f32 0x3F800000#32)) j
        = (1 : EReal) := by
    intro j
    show Ideal.ofBits .f32 0x3F800000#32 = 1
    simp [Ideal.ofBits, Ideal.ieee, -EReal.coe_mul]; norm_num
  -- an update lands on (b, s) exactly when s = 0
  have hiff : (∃ n ∈ List.finRange S512.numel,
        scatter_S512x2048_S1_S512_0_1_1_0.resultIdx? (S512.rowMajor.symm n) weightIdx0
          = some (ValueIdx.ix2 b s)) ↔ s.val = 0 := by
    constructor
    · rintro ⟨n, -, hn⟩
      obtain ⟨c, hc⟩ : ∃ c : Fin 512, S512.rowMajor.symm n = ValueIdx.ix1 c :=
        ⟨_, ValueIdx.eq_ix1 _⟩
      rw [hc, weight_landing] at hn
      have h1 := congrFun (Option.some.inj hn) ⟨1, by decide⟩
      exact (congrArg Fin.val h1).symm
    · intro hs
      obtain rfl : s = 0 := Fin.ext hs
      refine ⟨S512.rowMajor (ValueIdx.ix1 b), List.mem_finRange _, ?_⟩
      rw [Equiv.symm_apply_apply, weight_landing]
  rw [scatter_const_apply _ _ _ _ (1 : EReal) hone]
  exact if_congr hiff rfl rfl

end Cert.Crf
-- ==== Proof.RefValue.lean ====
/-
  The reference's result over the extended reals, in coordinates: the first position's emissions added to the
  gathered start-and-first-transition term and summed over rows and tags; the later transitions' total, weighted;
  and the masked later emissions summed over rows, positions and tags.
-/
import proofs.«162659_j14379550507279_2_alg».proof.Proof.Gen.ReferenceIdeal.Read
import proofs.«162659_j14379550507279_2_alg».proof.Proof.SumAlgebra
import Idealize.ShloMosaic.Lib.ValueIdx

open scoped BigOperators

namespace Cert.Crf
open Idealize.ShloMosaic Idealize.ShloMosaic.ValueIdx Cert.ReferenceIdeal Cert.ReferenceIdeal.Read

/-- The first slice of the emissions, reshaped to rows by tags, read at row `b` and tag `t`, is the emission at
    position 0: the reshape's row-major offset `b * 32 + t` divides back to `b` and leaves remainder `t`. -/
theorem idx_first (b : Fin 512) (t : Fin 32) :
    idx_main_v9 (idx_main_v10 (ix2 b t)) = ix3 b (⟨0, by decide⟩ : Fin 2048) t := by
  have ht := t.isLt
  funext a
  match a with
  | ⟨0, _⟩ => exact Fin.ext (show (b.val * 32 + t.val) / 32 = b.val by omega)
  | ⟨1, _⟩ => exact Fin.ext rfl
  | ⟨2, _⟩ => exact Fin.ext (show (b.val * 32 + t.val) % 32 = t.val by omega)

/-- The later slice of the emissions at `(b, s, t)` is the emission at position `1 + s`. -/
theorem idx_later (b : Fin 512) (s : Fin 2047) (t : Fin 32) :
    idx_main_v30 (ix3 b s t) = ix3 b (⟨1 + s.val, by have := s.isLt; omega⟩ : Fin 2048) t := by
  funext a
  match a with
  | ⟨0, _⟩ => exact Fin.ext rfl
  | ⟨1, _⟩ => exact Fin.ext rfl
  | ⟨2, _⟩ => exact Fin.ext rfl

/-- The later slice of the mask, broadcast along the tags, at `(b, s, t)` is the mask at position `1 + s`. -/
theorem idx_mask (b : Fin 512) (s : Fin 2047) (t : Fin 32) :
    idx_main_v31 (idx_main_v32 (idx_main_v33 (ix3 b s t)))
      = ix2 b (⟨1 + s.val, by have := s.isLt; omega⟩ : Fin 2048) := by
  funext a
  match a with
  | ⟨0, _⟩ => exact Fin.ext rfl
  | ⟨1, _⟩ => exact Fin.ext rfl

/-- The first summand's element: the gathered term plus the emission at position 0. -/
theorem first_at (x0 : FVec Ideal S512x2048x32 .f32) (x1 : IVec S512x2048 32) (x3 : FVec Ideal S32x32 .f32)
    (b : Fin 512) (t : Fin 32) :
    val_main_v11 (F := Ideal) x0 x1 x3 (ix2 b t)
      = val_main_v8 (F := Ideal) x1 x3 (ix2 b t) + x0 (ix3 b (⟨0, by decide⟩ : Fin 2048) t) := by
  rw [val_main_v11_apply, val_main_v10_apply, val_main_v9_apply, idx_first]
  rfl

/-- The third summand's element: the emission at position `1 + s` times the mask there. -/
theorem later_at (x0 : FVec Ideal S512x2048x32 .f32) (x2 : FVec Ideal S512x2048 .f32)
    (b : Fin 512) (s : Fin 2047) (t : Fin 32) :
    val_main_v34 (F := Ideal) x0 x2 (ix3 b s t)
      = x0 (ix3 b (⟨1 + s.val, by have := s.isLt; omega⟩ : Fin 2048) t)
        * x2 (ix2 b (⟨1 + s.val, by have := s.isLt; omega⟩ : Fin 2048)) := by
  rw [val_main_v34_apply, val_main_v30_apply, val_main_v33_apply, val_main_v32_apply, val_main_v31_apply,
    idx_later, idx_mask]
  rfl

/-- The reference's result in coordinates: (0 + Σ_{b,t} (A[b,t] + e[b,0,t])) + (0 + Σ later masked step transitions) · 32
    + (0 + Σ_{b, s ≥ 1, t} e[b,s,t] · μ[b,s]), each host sum read as zero plus a finite sum over coordinates. -/
theorem ref_value (x0 : FVec Ideal S512x2048x32 .f32) (x1 : IVec S512x2048 32) (x2 : FVec Ideal S512x2048 .f32) (x3 : FVec Ideal S32x32 .f32) (i : S_.Idx) :
    val_main_v40 (F := Ideal) x0 x1 x2 x3 i
      = ((0 + ∑ b : Fin 512, ∑ t : Fin 32, (val_main_v8 (F := Ideal) x1 x3 (ix2 b t) + x0 (ix3 b (⟨0, by decide⟩ : Fin 2048) t)))
          + (0 + ∑ j : S512x2047.Idx, val_main_v29 (F := Ideal) x1 x2 x3 j) * Ideal.ofBits .f32 0x42000000#32)
        + (0 + ∑ b : Fin 512, ∑ s : Fin 2047, ∑ t : Fin 32,
            x0 (ix3 b (⟨1 + s.val, by have := s.isLt; omega⟩ : Fin 2048) t) * x2 (ix2 b (⟨1 + s.val, by have := s.isLt; omega⟩ : Fin 2048))) := by
  rw [val_main_v40_apply, val_main_v38_apply, val_main_v35_apply, val_main_v37_apply, val_main_v36_apply,
    val_main_v39_apply, val_main_cst_apply, val_main_cst_5_apply, val_main_cst_6_apply, val_main_cst_7_apply]
  rw [Ideal.addf_def, Ideal.addf_def, Ideal.mulf_def, Ideal.ofBits_def, Ideal.ofBits_def, Ideal.ofBits_zero_f32]
  rw [sum_idx2 (n0 := 512) (n1 := 32), sum_idx3 (n0 := 512) (n1 := 2047) (n2 := 32)]
  refine congrArg₂ (· + ·) (congrArg₂ (· + ·) (congrArg (0 + ·) ?_) rfl) (congrArg (0 + ·) ?_)
  · exact Finset.sum_congr rfl fun b _ => Finset.sum_congr rfl fun t _ => first_at x0 x1 x3 b t
  · exact Finset.sum_congr rfl fun b _ => Finset.sum_congr rfl fun s _ => Finset.sum_congr rfl fun t _ =>
      later_at x0 x2 b s t

end Cert.Crf
-- ==== Proof.Bridge.lean ====
/-
  The two programs compute one number. With A the gathered transition rows of the first tags, Y the weighted total of
  the masked step transitions (both the same terms in the two programs), e the emissions and μ the mask (real-valued
  by the precondition), the kernel's result is

      (0 + Σ A) + Y + Σ_k Σ_r Σ_s (Σ_t e[8k+r,s,t]) · w[8k+r,s],      w = μ with column 0 set to 1,

  and the reference's is

      (0 + Σ (A + e[·,0,·])) + Y + (0 + Σ_{b, s ≥ 1, t} e[b,s,t] · μ[b,s]).

  They agree: the 64 blocks of 8 rows are the 512 rows; position 0 carries weight 1; a real weight distributes over
  the sum of a position's real emissions; the rest is re-association of sums of extended reals.
-/
import proofs.«162659_j14379550507279_2_alg».proof.Proof.KernelValue
import proofs.«162659_j14379550507279_2_alg».proof.Proof.FiniteInputs
import proofs.«162659_j14379550507279_2_alg».proof.Proof.SumAlgebra
import proofs.«162659_j14379550507279_2_alg».proof.Proof.WeightColumn
import proofs.«162659_j14379550507279_2_alg».proof.Proof.RefValue

noncomputable section

open Idealize.ShloMosaic Idealize.ShloMosaic.TcCoe Idealize.SL.Sem Idealize.ShloMosaic.ValueIdx

namespace Cert.Crf

open Cert.KernelIdeal Cert.KernelIdeal.Gen Cert.KernelIdeal.Region Cert.KernelIdeal.HostValue

variable (m : (ℓ : Loc nD τ sig) → Buf (Elt Ideal) ℓ)

/-- The first transition term in coordinates: zero plus the sum, over sequences and tags, of the gathered rows. -/
theorem first_term (c : Dev nD) (i : S_.Idx) :
    (V0 m c (Proc.devRef .tc main_v9) : S_.Idx → Ideal .f32) i
      = 0 + ∑ b : Fin 512, ∑ t : Fin 32,
          Cert.ReferenceIdeal.Read.val_main_v8 (F := Ideal) (m ((c : Thread nD τ).loc main_arg1)) (m ((c : Thread nD τ).loc main_arg3)) (ix2 b t) := by
  rw [V0_v9]
  generalize Cert.ReferenceIdeal.Read.val_main_v8 (F := Ideal) (m ((c : Thread nD τ).loc main_arg1)) (m ((c : Thread nD τ).loc main_arg3)) = y0
  simp only [Host.reduceAdd, Ideal.hostReduceAdd_def]
  refine (Ideal.hostReduceAdd_total Cert.ReferenceIdeal.Gen.reducesTo_S512x32_S_d0_1 (fun b => b.elim0) y0 _ i).trans ?_
  rw [sum_idx2 (n0 := 512) (n1 := 32)]
  show Ideal.ofBits .f32 0x00000000#32 + _ = 0 + _
  rw [Ideal.ofBits_zero_f32]

/-- The second transition term: zero plus the masked step transitions' total, times the word 32.0. -/
theorem second_term (c : Dev nD) (i : S_.Idx) :
    (V0 m c (Proc.devRef .tc main_v29) : S_.Idx → Ideal .f32) i
      = (0 + ∑ j : Cert.ReferenceIdeal.S512x2047.Idx,
          Cert.ReferenceIdeal.Read.val_main_v29 (F := Ideal) (m ((c : Thread nD τ).loc main_arg1)) (m ((c : Thread nD τ).loc main_arg2)) (m ((c : Thread nD τ).loc main_arg3)) j)
        * Ideal.ofBits .f32 0x42000000#32 := by
  rw [V0_v29]
  generalize Cert.ReferenceIdeal.Read.val_main_v29 (F := Ideal) (m ((c : Thread nD τ).loc main_arg1)) (m ((c : Thread nD τ).loc main_arg2)) (m ((c : Thread nD τ).loc main_arg3)) = y0
  show (Host.reduceAdd y0 (constant (F := Ideal) S_ .f32 0x00000000#32) Cert.ReferenceIdeal.Gen.reducesTo_S512x2047_S_d0_1 Cert.ReferenceIdeal.Gen.h_S_) i
      * Ideal.ofBits .f32 0x42000000#32 = _
  refine congrArg (· * Ideal.ofBits .f32 0x42000000#32) ?_
  simp only [Host.reduceAdd, Ideal.hostReduceAdd_def]
  refine (Ideal.hostReduceAdd_total Cert.ReferenceIdeal.Gen.reducesTo_S512x2047_S_d0_1 (fun b => b.elim0) y0 _ i).trans ?_
  show Ideal.ofBits .f32 0x00000000#32 + _ = 0 + _
  rw [Ideal.ofBits_zero_f32]

/-- The region's total over real emissions `e` and a real mask `μ`: the 64 blocks of 8 rows, each position's
    emissions summed over the tags and weighted by 1 at position 0 and by the mask elsewhere. -/
theorem region_term (c : Dev nD) (i : S_.Idx)
    (e : S512x2048x32.Idx → ℝ) (he : ∀ j, m ((c : Thread nD τ).loc main_arg0) j = (e j : EReal))
    (μ : S512x2048.Idx → ℝ) (hμ : ∀ j, m ((c : Thread nD τ).loc main_arg2) j = (μ j : EReal)) :
    (shapeCast S_ (result m c) shapeCasts_S1x1_S_ : S_.Idx → Ideal .f32) i
      = ∑ n : Fin 64, ∑ r : Fin 8, ∑ s : Fin 2048,
          (∑ t : Fin 32, ((e (ix3 (⟨8 * n.val + r.val, by have := n.isLt; have := r.isLt; omega⟩ : Fin 512) s t) : ℝ) : EReal))
            * (if s.val = 0 then (1 : EReal)
               else ((μ (ix2 (⟨8 * n.val + r.val, by have := n.isLt; have := r.isLt; omega⟩ : Fin 512) s) : ℝ) : EReal)) := by
  show running m c 63 lastLt = _
  unfold running
  refine Finset.sum_congr rfl fun n _ => ?_
  rw [pointTotal_eq]
  refine Finset.sum_congr rfl fun r _ => Finset.sum_congr rfl fun s _ => ?_
  refine congrArg₂ (· * ·) (Finset.sum_congr rfl fun t _ => ?_) ?_
  · exact (congrFun (V_main_arg0 m c) _).trans (he _)
  · refine (congrFun (V_v32 m c) _).trans ((weight_apply _ _ s).trans ?_)
    exact congrArg (fun x => if s.val = 0 then (1 : EReal) else x) (hμ _)

/-- THE BRIDGE: under the finiteness precondition the kernel program's result is the reference's result term of the
    same arguments. -/
theorem kres_eq_ref (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) = fun _ => 1#1) :
    kres m c = Cert.ReferenceIdeal.Read.val_main_v40 (F := Ideal) (m ((c : Thread nD τ).loc main_arg0)) (m ((c : Thread nD τ).loc main_arg1))
      (m ((c : Thread nD τ).loc main_arg2)) (m ((c : Thread nD τ).loc main_arg3)) := by
  funext i
  obtain ⟨h0, h2⟩ := finite_of_pre _ _ _ _ hpre
  choose e he using h0
  choose μ hμ using h2
  rw [ref_value]
  have hk := congrArg₂ (fun x y : EReal => x + y) (congrArg₂ (fun x y : EReal => x + y) (first_term m c i) (second_term m c i)) (region_term m c i e he μ hμ)
  refine (show kres m c i = _ from hk).trans ?_
  simp only [he, hμ]
  exact total_eq
    (fun b t => Cert.ReferenceIdeal.Read.val_main_v8 (F := Ideal) (m ((c : Thread nD τ).loc main_arg1)) (m ((c : Thread nD τ).loc main_arg3)) (ix2 b t))
    ((0 + ∑ j : Cert.ReferenceIdeal.S512x2047.Idx,
        Cert.ReferenceIdeal.Read.val_main_v29 (F := Ideal) (m ((c : Thread nD τ).loc main_arg1)) (m ((c : Thread nD τ).loc main_arg2)) (m ((c : Thread nD τ).loc main_arg3)) j)
      * Ideal.ofBits .f32 0x42000000#32)
    (fun b s t => e (ix3 b s t)) (fun b s => μ (ix2 b s))

end Cert.Crf

end
-- ==== Proof.lean ====
/-
  The certificate's five claims for the CRF forward score.

  The score is Σ_b [ Σ_t (T[tag_{b,0}, t] + e_{b,0,t}) ] + 32 · Σ_{b, s ≥ 1} T[tag_{b,s-1}, tag_{b,s}] · μ_{b,s}
                 + Σ_{b, s ≥ 1, t} e_{b,s,t} · μ_{b,s}
  (T the transition table, e the emissions, μ the mask). The kernel program computes the two transition terms on the
  host exactly as the reference does and the emission terms in one accumulating pass over 64 blocks of 8 sequences,
  Σ_b Σ_s (Σ_t e_{b,s,t}) · w_{b,s} with w the mask whose column 0 is set to one. Over finite emissions and mask the
  two are equal as extended reals (Proof/Bridge.lean). The three frame claims are the generated frame runs (the
  reference's is its generated run with the result dropped); the ideal pass rewrote nothing, so the preservation
  claim is trivial.
-/
import proofs.«162659_j14379550507279_2_alg».proof.Defs
import proofs.«162659_j14379550507279_2_alg».proof.Proof.Gen.Kernel
import proofs.«162659_j14379550507279_2_alg».proof.Proof.Gen.Kernel.Skeleton
import proofs.«162659_j14379550507279_2_alg».proof.Proof.Gen.Kernel.Launch
import proofs.«162659_j14379550507279_2_alg».proof.Proof.Gen.Kernel.Points
import proofs.«162659_j14379550507279_2_alg».proof.Proof.Gen.Kernel.Frame
import proofs.«162659_j14379550507279_2_alg».proof.Proof.Gen.KernelIdeal
import proofs.«162659_j14379550507279_2_alg».proof.Proof.Gen.KernelIdeal.Skeleton
import proofs.«162659_j14379550507279_2_alg».proof.Proof.Gen.KernelIdeal.Launch
import proofs.«162659_j14379550507279_2_alg».proof.Proof.Gen.KernelIdeal.Points
import proofs.«162659_j14379550507279_2_alg».proof.Proof.Gen.KernelIdeal.Frame
import proofs.«162659_j14379550507279_2_alg».proof.Proof.Gen.ReferenceIdeal
import proofs.«162659_j14379550507279_2_alg».proof.Proof.Gen.Pre_finite_inputs
import proofs.«162659_j14379550507279_2_alg».proof.Proof.Gen.ReferenceIdeal.Read
import proofs.«162659_j14379550507279_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel program. -/
theorem preserves : Cert.preserves_Kernel_KernelIdeal := trivial

/-- From memories agreeing on the four arguments, the kernel program ends with its result at `kres` (its run, read)
    and the reference with its result at its composed term of the same arguments (its generated run), which the
    bridge identifies under the precondition. -/
theorem algebraic : Cert.algebraic_KernelIdeal_ReferenceIdeal := by
  intro m ρ m' ρ' hpre hagree
  refine ⟨fun c => Cert.KernelIdeal.HostValue.kres m c, Cert.KernelIdeal.HostValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2.1, (hagree c).2.2.2]
  exact (Cert.Crf.kres_eq_ref m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
